-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x200 : Shape := ⟨2, ![128, 200]⟩
abbrev S200 : Shape := ⟨1, ![200]⟩
abbrev S200x64 : Shape := ⟨2, ![200, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_
  bcast_S_S200x64 : S_.BroadcastsInDim S200x64 (![] : Fin 0 → Fin S200x64.rank)
  reducesTo_S200x64_S_d0_1 : S200x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S200x64 .f32) (main_arg7 : FVec F S64 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200x64 .f32 := Host.absf main_arg6
  let main_cst_6 : FVec F S_ .f32 := constant S_ .f32 0x7F800000#32
  let main_v20 : FVec F S200x64 .f32 := broadcastInDim S200x64 ![] bcast_S_S200x64 main_cst_6
  let main_v21 : IVec S200x64 1 := cmpf .olt main_v19 main_v20
  let main_c_7 : IVec S_ 1 := constantI S_ 1 1#1
  let main_v22 : IVec S_ 1 := (fun x v => Host.reduce IntOp.andi x v reducesTo_S200x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S800000 .f32) (main_arg4 : FVec F S128x200 .f32) (main_arg5 : FVec F S200 .f32) (main_arg6 : FVec F S200x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x200 .f32 := Host.absf main_arg4
  let main_cst_2 : FVec F S_ .f32 := constant S_ .f32 0x7F800000#32
  let main_v10 : FVec F S128x200 .f32 := broadcastInDim S128x200 ![] bcast_S_S128x200 main_cst_2
  let main_v11 : IVec S128x200 1 := cmpf .olt main_v9 main_v10
  let main_c_3 : IVec S_ 1 := constantI S_ 1 1#1
  let main_v12 : IVec S_ 1 := (fun x v => Host.reduce IntOp.andi x v reducesTo_S128x200_S_d0_1 h_S_) main_v11 main_c_3
  let main_v13 : IVec S_ 1 := andi main_v8 main_v12
  let main_v14 : FVec F S200 .f32 := Host.absf main_arg5
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S128x200 : Shape := ⟨2, ![128, 200]⟩
abbrev S200 : Shape := ⟨1, ![200]⟩
abbrev S200x64 : Shape := ⟨2, ![200, 64]⟩
abbrev S64 : Shape := ⟨1, ![64]⟩
abbrev S800000x1 : Shape := ⟨2, ![800000, 1]⟩
abbrev S_ : Shape := ⟨0, ![]⟩
abbrev S800000x128 : Shape := ⟨2, ![800000, 128]⟩
abbrev S128x256 : Shape := ⟨2, ![128, 256]⟩
abbrev S1 : Shape := ⟨1, ![1]⟩
abbrev S256 : Shape := ⟨1, ![256]⟩
abbrev S256x64 : Shape := ⟨2, ![256, 64]⟩
abbrev S1x256 : Shape := ⟨2, ![1, 256]⟩
abbrev S1x64 : Shape := ⟨2, ![1, 64]⟩
abbrev S50000x64 : Shape := ⟨2, ![50000, 64]⟩
abbrev S10000x128 : Shape := ⟨2, ![10000, 128]⟩
abbrev S10000x64 : Shape := ⟨2, ![10000, 64]⟩
abbrev S10000x256 : Shape := ⟨2, ![10000, 256]⟩

abbrev nBuf : Space → Nat
  | .hbm => 42
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x200, .f32⟩
  | .hbm, ⟨5, _⟩ => ⟨S200, .f32⟩
  | .hbm, ⟨6, _⟩ => ⟨S200x64, .f32⟩
  | .hbm, ⟨7, _⟩ => ⟨S64, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S128x256, .f32⟩
  | .hbm, ⟨26, _⟩ => ⟨S_, .i32⟩
  | .hbm, ⟨27, _⟩ => ⟨S1, .i32⟩
  | .hbm, ⟨28, _⟩ => ⟨S128x256, .f32⟩
  | .hbm, ⟨29, _⟩ => ⟨S_, .f32⟩
  | .hbm, ⟨30, _⟩ => ⟨S256, .f32⟩
  | .hbm, ⟨31, _⟩ => ⟨S_, .i32⟩
  | .hbm, ⟨32, _⟩ => ⟨S1, .i32⟩
  | .hbm, ⟨33, _⟩ => ⟨S256, .f32⟩
  | .hbm, ⟨34, _⟩ => ⟨S_, .f32⟩
  | .hbm, ⟨35, _⟩ => ⟨S256x64, .f32⟩
  | .hbm, ⟨36, _⟩ => ⟨S_, .i32⟩
  | .hbm, ⟨37, _⟩ => ⟨S1, .i32⟩
  | .hbm, ⟨38, _⟩ => ⟨S256x64, .f32⟩
  | .hbm, ⟨39, _⟩ => ⟨S1x256, .f32⟩
  | .hbm, ⟨40, _⟩ => ⟨S1x64, .f32⟩
  | .hbm, ⟨41, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S128x256 : S_.BroadcastsInDim S128x256 (![] : Fin 0 → Fin S128x256.rank)
  bcast_S_S1 : S_.BroadcastsInDim S1 (![] : Fin 0 → Fin S1.rank)
  bcast_S_S256 : S_.BroadcastsInDim S256 (![] : Fin 0 → Fin S256.rank)
  bcast_S_S256x64 : S_.BroadcastsInDim S256x64 (![] : Fin 0 → Fin S256x64.rank)
  shapeCasts_S256_S1x256 : S256.ShapeCasts S1x256
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x256_S1_S128x200_01_n_1_0_wf : ScatterDims.WF S128x256 S1 S128x200 [0, 1] [] [1] 0
  scatter_S256_S1_S200_0_n_0_0_wf : ScatterDims.WF S256 S1 S200 [0] [] [0] 0
  scatter_S256x64_S1_S200x64_01_n_0_0_wf : ScatterDims.WF S256x64 S1 S200x64 [0, 1] [] [0] 0
  dot_S10000x128_S128x256_S10000x256_1_0_0_1_n_n_wf : DotDims.WF S10000x128 S128x256 S10000x256 [1] [0] [0] [1] [] []
  dot_S10000x256_S256x64_S10000x64_1_0_0_1_n_n_wf : DotDims.WF S10000x256 S256x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S50000x64.size a
  hwx0_6 : ∀ i : grid0.Coords, EltTy.bits .f32 = 32 ∨ (Rect.block (s := S50000x64) S10000x64.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x256_S1_S128x200_01_n_1_0 : ScatterDims S128x256 S1 S128x200 where
  updateWindowDims := [0, 1]
  insertedWindowDims := []
  scatterDimsToOperandDims := [1]
  indexVectorDim := 0
  wf := scatter_S128x256_S1_S128x200_01_n_1_0_wf
def scatter_S256_S1_S200_0_n_0_0 : ScatterDims S256 S1 S200 where
  updateWindowDims := [0]
  insertedWindowDims := []
  scatterDimsToOperandDims := [0]
  indexVectorDim := 0
  wf := scatter_S256_S1_S200_0_n_0_0_wf
def scatter_S256x64_S1_S200x64_01_n_0_0 : ScatterDims S256x64 S1 S200x64 where
  updateWindowDims := [0, 1]
  insertedWindowDims := []
  scatterDimsToOperandDims := [0]
  indexVectorDim := 0
  wf := scatter_S256x64_S1_S200x64_01_n_0_0_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x200 : Shape := ⟨2, ![128, 200]⟩
abbrev S200 : Shape := ⟨1, ![200]⟩
abbrev S200x64 : Shape := ⟨2, ![200, 64]⟩
abbrev S64 : Shape := ⟨1, ![64]⟩
abbrev S800000x1 : Shape := ⟨2, ![800000, 1]⟩
abbrev S_ : Shape := ⟨0, ![]⟩
abbrev S800000x128 : Shape := ⟨2, ![800000, 128]⟩
abbrev S50000x200 : Shape := ⟨2, ![50000, 200]⟩
abbrev S1x200 : Shape := ⟨2, ![1, 200]⟩
abbrev S50000x64 : Shape := ⟨2, ![50000, 64]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x200, .f32⟩
  | .hbm, ⟨5, _⟩ => ⟨S200, .f32⟩
  | .hbm, ⟨6, _⟩ => ⟨S200x64, .f32⟩
  | .hbm, ⟨7, _⟩ => ⟨S64, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x200, .f32⟩
  | .hbm, ⟨29, _⟩ => ⟨S1x200, .f32⟩
  | .hbm, ⟨30, _⟩ => ⟨S50000x200, .f32⟩
  | .hbm, ⟨31, _⟩ => ⟨S50000x200, .f32⟩
  | .hbm, ⟨32, _⟩ => ⟨S_, .f32⟩
  | .hbm, ⟨33, _⟩ => ⟨S50000x200, .f32⟩
  | .hbm, ⟨34, _⟩ => ⟨S50000x200, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x200_S50000x200_1_0_0_1_n_n_wf : DotDims.WF S50000x128 S128x200 S50000x200 [1] [0] [0] [1] [] []
  dot_S50000x200_S200x64_S50000x64_1_0_0_1_n_n_wf : DotDims.WF S50000x200 S200x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x200_S50000x200_1_0_0_1_n_n : DotDims S50000x128 S128x200 S50000x200 where
  lhsContracting := [1]
  rhsContracting := [0]
  lhsNonContracting := [0]
  rhsNonContracting := [1]
  lhsBatch := []
  rhsBatch := []
  wf := dot_S50000x128_S128x200_S50000x200_1_0_0_1_n_n_wf
def dot_S50000x200_S200x64_S50000x64_1_0_0_1_n_n : DotDims S50000x200 S200x64 S50000x64 where
  lhsContracting := [1]
  rhsContracting := [0]
  lhsNonContracting := [0]
  rhsNonContracting := [1]
  lhsBatch := []
  rhsBatch := []
  wf := dot_S50000x200_S200x64_S50000x64_1_0_0_1_n_n_wf

class Facts : Prop extends Facts₀ where

variable [Facts]
-- ==== Proof.Agg.lean ====
/-
  The neighbour aggregation both programs compute on the host before anything else, as ONE function of the four
  argument arrays it reads: message e is edge_val[e] * x[edge_col[e]] (the column index wrapped once if negative, then
  clamped by the gather), and row i of the result is the sum of the messages of the edges with edge_row[e] = i, added
  onto zeros by a scatter. It is stated over the dimension records and layout facts of whichever program spells it,
  so that each program's own text is this function of its own records; the records themselves hold the same
  numbers in both programs.
-/
import Idealize.ShloMosaic.PureOps.Ideal
import Idealize.ShloMosaic.PureOps.ShapeOps
import Idealize.ShloMosaic.PureOps.Vector

noncomputable section

namespace Cert.Agg

open Idealize.ShloMosaic

/-- The aggregated messages: a scatter-add onto zeros, by row number, of the gathered rows scaled by the edge values. -/
def agg (dg : GatherDims ⟨2, ![50000, 128]⟩ ⟨2, ![800000, 1]⟩ ⟨2, ![800000, 128]⟩)
    (ds : ScatterDims ⟨2, ![50000, 128]⟩ ⟨2, ![800000, 1]⟩ ⟨2, ![800000, 128]⟩)
    (hz : (⟨0, ![]⟩ : Shape).BroadcastsInDim ⟨2, ![50000, 128]⟩ ![])
    (he : (⟨1, ![800000]⟩ : Shape).BroadcastsInDim ⟨2, ![800000, 1]⟩ ![0])
    (hs : (⟨2, ![800000, 1]⟩ : Shape).BroadcastsInDim ⟨2, ![800000, 128]⟩ ![0, 1])
    (hi : (⟨0, ![]⟩ : Shape).BroadcastsInDim ⟨1, ![800000]⟩ ![])
    (x0 : FVec Ideal ⟨2, ![50000, 128]⟩ .f32) (x1 x2 : IVec ⟨1, ![800000]⟩ 32) (x3 : FVec Ideal ⟨1, ![800000]⟩ .f32) :
    FVec Ideal ⟨2, ![50000, 128]⟩ .f32 :=
  Host.scatterAdd ds (broadcastInDim ⟨2, ![50000, 128]⟩ ![] hz (constant (F := Ideal) ⟨0, ![]⟩ .f32 0x00000000#32))
    (broadcastInDim ⟨2, ![800000, 1]⟩ ![0] he x1)
    (mulf (broadcastInDim ⟨2, ![800000, 128]⟩ ![0, 1] hs (broadcastInDim ⟨2, ![800000, 1]⟩ ![0] he x3))
      (Host.gather dg x0 (broadcastInDim ⟨2, ![800000, 1]⟩ ![0] he
        (select (cmpi .slt x2 (broadcastInDim ⟨1, ![800000]⟩ ![] hi (constantI ⟨0, ![]⟩ 32 0#32)))
          (addi x2 (broadcastInDim ⟨1, ![800000]⟩ ![] hi (constantI ⟨0, ![]⟩ 32 50000#32))) x2))))

end Cert.Agg

end
-- ==== Proof.LibScatterRows.lean ====
/-
  A BLOCK OF ROWS WRITTEN INTO A LARGER ARRAY BY ONE SCATTER WINDOW, read at an entry.

  `stablehlo.scatter` of an `[N, C]` array of updates into an `[M, C]` operand, with both axes of the updates
  window axes, no inserted axis, the one component of the single scatter index naming the operand's axis 0, and
  that index equal to 0: the whole of the updates is ONE window whose corner is the operand's corner (what writing
  an array into the first `N` rows of a larger one lowers to). Entry `(k, c)` of the result is the body applied to
  the operand's entry and the update's entry `(k, c)` when `k < N`, and the operand's entry when `N ≤ k`
  (`scatter_rows_apply`).

  The scatter is a left fold of point updates over the update indices in row-major order. Three layers:
  * a fold of point updates over any list, read at one point: a point no element of the list is sent to keeps its
    value (`foldl_point_of_not_hit`); a point exactly one element of a list without repeats is sent to is
    updated once, by that element (`foldl_point_of_hit_once`);
  * the same two statements for `Host.scatter` with any dimension numbers, in terms of the result index of each
    update index (`scatter_apply_of_not_hit`, `scatter_apply_of_hit_once`): the update indices in row-major order
    are the list of all of them, without repeats, because row-major order is a bijection;
  * for the dimension numbers above the window starts at 0 on both axes and the window coordinate on each axis is
    the update index's own coordinate, so update index `(r, c)` lands at operand index `(r, c)`
    (`rows_resultIdx`): an injective map whose image is the rows below `N`.
-/
import Idealize.ShloMosaic.Lib.ValueIdx
import Idealize.ShloMosaic.PureOps.ShapeOps

noncomputable section

namespace Cert.LibScatterRows

open Idealize.ShloMosaic Idealize.ShloMosaic.ValueIdx

/-! ## A left fold of point updates, read at one point

`g n` is the point element `n` updates (`none`: it updates nothing), `u n` the value it brings, `f` combines the old
value with the brought one. The step is given by its two defining equations rather than as a `match`, so that the
lemmas apply to any function that satisfies them. -/

section Fold
variable {ι κ α : Type} [DecidableEq ι]

/-- A point that no element of the list updates keeps its value through the fold. By induction on the list: the
    head's step changes only the point the head is sent to, which is another one. -/
theorem foldl_point_of_not_hit (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (x : ι → α) (i' : ι) (h : ∀ n ∈ L, g n ≠ some i') :
    L.foldl step x i' = x i' := by
  induction L generalizing x with
  | nil => rfl
  | cons n L ih =>
    rw [List.foldl_cons, ih _ (fun m hm => h m (List.mem_cons_of_mem _ hm))]
    cases hg : g n with
    | none => rw [hn x n hg]
    | some i =>
      rw [hs x n i hg]
      have hne : i' ≠ i := fun e => h n (List.mem_cons_self ..) (by rw [hg, e])
      exact if_neg hne

/-- A point that exactly one element `n0` of a list without repeats updates is, after the fold, `f` of its first value
    and the value `n0` brings. By induction on the list: if `n0` is the head, the head's step makes the update and
    the tail (which does not contain `n0` again, so updates the point no more) keeps it; if `n0` is in the tail, the
    head is another element, so leaves the point alone, and the induction hypothesis applies to the tail. -/
theorem foldl_point_of_hit_once (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (hnd : L.Nodup) (x : ι → α) (i' : ι) (n0 : κ) (hn0 : n0 ∈ L) (hg0 : g n0 = some i')
    (huniq : ∀ n ∈ L, g n = some i' → n = n0) :
    L.foldl step x i' = f (x i') (u n0) := by
  induction L generalizing x with
  | nil => cases hn0
  | cons n L ih =>
    rw [List.foldl_cons]
    have hnd' := List.nodup_cons.1 hnd
    rcases List.mem_cons.1 hn0 with heq | hmem
    · subst heq
      rw [foldl_point_of_not_hit g f u step hs hn L _ i' (fun m hm hgm => by
        have := huniq m (List.mem_cons_of_mem _ hm) hgm
        subst this; exact hnd'.1 hm)]
      rw [hs x n0 i' hg0]; exact if_pos rfl
    · have hne : n ≠ n0 := fun e => hnd'.1 (e ▸ hmem)
      have hgn : g n ≠ some i' := fun e => hne (huniq n (List.mem_cons_self ..) e)
      rw [ih hnd'.2 _ hmem (fun m hm => huniq m (List.mem_cons_of_mem _ hm))]
      congr 1
      cases hg : g n with
      | none => rw [hn x n hg]
      | some i => rw [hs x n i hg]; exact if_neg (fun e => hgn (by rw [hg, e]))

end Fold

/-! ## `Host.scatter` read at an operand index, for any dimension numbers -/

section Scatter
variable {α : Type} {s si u : Shape} {w : Nat}

/-- An operand index that is the result index of no update index keeps the operand's element. -/
theorem scatter_apply_of_not_hit (d : ScatterDims s si u) (f : α → α → α) (x : s.Idx → α) (idx : IVec si w)
    (upd : u.Idx → α) (i' : s.Idx) (h : ∀ j, d.resultIdx? j idx ≠ some i') :
    Host.scatter d f x idx upd i' = x i' := by
  unfold Host.scatter
  exact foldl_point_of_not_hit (fun n => d.resultIdx? (u.rowMajor.symm n) idx) f (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) x i' (fun n _ => h (u.rowMajor.symm n))

/-- An operand index that is the result index of exactly one update index `j0` holds the body applied to the
    operand's element and the update's element at `j0`. The fold runs over the positions `0 … numel − 1`, a list
    without repeats, each standing for the update index at that row-major position; that correspondence is a
    bijection, so the one position sent to the operand index is `j0`'s. -/
theorem scatter_apply_of_hit_once (d : ScatterDims s si u) (f : α → α → α) (x : s.Idx → α) (idx : IVec si w)
    (upd : u.Idx → α) (i' : s.Idx) (j0 : u.Idx) (h0 : d.resultIdx? j0 idx = some i')
    (huniq : ∀ j, d.resultIdx? j idx = some i' → j = j0) :
    Host.scatter d f x idx upd i' = f (x i') (upd j0) := by
  unfold Host.scatter
  refine (foldl_point_of_hit_once (fun n => d.resultIdx? (u.rowMajor.symm n) idx) f
    (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) (List.nodup_finRange _) x i' (u.rowMajor j0) (List.mem_finRange _)
    (by simp only [Equiv.symm_apply_apply]; exact h0)
    (fun n _ hg => by
      have := huniq (u.rowMajor.symm n) hg
      rw [← this, Equiv.apply_symm_apply])).trans ?_
  simp only [Equiv.symm_apply_apply]

end Scatter

/-! ## One window of `N` rows at the corner of an `[M, C]` operand -/

section Rows
variable {M N C w : Nat}

/-- The dimension numbers: operand `[M, C]`, scatter indices `[1]` (one index vector of one component, along axis
    0), updates `[N, C]`; both update axes are window axes, no operand axis is inserted, the index's component
    is the start on operand axis 0. Their conditions `wf` are decided on a program's literal shapes. -/
abbrev rowsDims (M N C : Nat) (wf : ScatterDims.WF ⟨2, ![M, C]⟩ ⟨1, ![1]⟩ ⟨2, ![N, C]⟩ [0, 1] [] [0] 0) :
    ScatterDims ⟨2, ![M, C]⟩ ⟨1, ![1]⟩ ⟨2, ![N, C]⟩ where
  updateWindowDims := [0, 1]
  insertedWindowDims := []
  scatterDimsToOperandDims := [0]
  indexVectorDim := 0
  wf := wf

/-- With no inserted axis the operand's kept axes are both of its axes. -/
theorem rows_sKept (wf : ScatterDims.WF ⟨2, ![M, C]⟩ ⟨1, ![1]⟩ ⟨2, ![N, C]⟩ [0, 1] [] [0] 0) :
    (rowsDims M N C wf).sKept = [0, 1] := rfl

/-- The conditions contain `N ≤ M`: window axis 0 of the updates is at most the operand axis it goes to. -/
theorem rows_le (wf : ScatterDims.WF ⟨2, ![M, C]⟩ ⟨1, ![1]⟩ ⟨2, ![N, C]⟩ [0, 1] [] [0] 0) : N ≤ M :=
  (rowsDims M N C wf).window_size ⟨0, Nat.zero_lt_two⟩

/-- The window starts at 0 on operand axis 0: that start is the scatter index's one component, read at the
    scatter-indices index whose only coordinate is 0, and it is 0 by hypothesis. -/
theorem rows_start0 (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).start j idx 0 = 0 := by
  unfold ScatterDims.start
  rw [dif_pos (show (0 : Fin 2) ∈ (rowsDims M N C wf).scatterDimsToOperandDims from List.mem_singleton.mpr rfl)]
  have hsi : (rowsDims M N C wf).siIdx j ⟨List.idxOf (0 : Fin 2) (rowsDims M N C wf).scatterDimsToOperandDims,
      List.idxOf_lt_length_iff.2 (List.mem_singleton.mpr rfl)⟩ = ix1 0 := by
    funext b; refine Fin.ext ?_
    match b with
    | ⟨0, _⟩ => rfl
  rw [hsi]; exact hidx

/-- The window starts at 0 on operand axis 1: the scatter index has no component for it. -/
theorem rows_start1 (wf : ScatterDims.WF ⟨2, ![M, C]⟩ ⟨1, ![1]⟩ ⟨2, ![N, C]⟩ [0, 1] [] [0] 0)
    (idx : IVec ⟨1, ![1]⟩ w) (j : (⟨2, ![N, C]⟩ : Shape).Idx) :
    (rowsDims M N C wf).start j idx 1 = 0 := by
  unfold ScatterDims.start
  rw [dif_neg (show (1 : Fin 2) ∉ (rowsDims M N C wf).scatterDimsToOperandDims from
    fun h => Nat.one_ne_zero (congrArg Fin.val (List.mem_singleton.mp h)))]

/-- The window coordinate on operand axis 0 is the update index's coordinate 0. -/
theorem rows_window0 (wf : ScatterDims.WF ⟨2, ![M, C]⟩ ⟨1, ![1]⟩ ⟨2, ![N, C]⟩ [0, 1] [] [0] 0)
    (j : (⟨2, ![N, C]⟩ : Shape).Idx) : (rowsDims M N C wf).window j 0 = (j 0).val := by
  unfold ScatterDims.window
  rw [dif_pos (show (0 : Fin 2) ∈ (rowsDims M N C wf).sKept by rw [rows_sKept]; exact List.mem_cons_self ..)]
  rfl

/-- The window coordinate on operand axis 1 is the update index's coordinate 1. -/
theorem rows_window1 (wf : ScatterDims.WF ⟨2, ![M, C]⟩ ⟨1, ![1]⟩ ⟨2, ![N, C]⟩ [0, 1] [] [0] 0)
    (j : (⟨2, ![N, C]⟩ : Shape).Idx) : (rowsDims M N C wf).window j 1 = (j 1).val := by
  unfold ScatterDims.window
  rw [dif_pos (show (1 : Fin 2) ∈ (rowsDims M N C wf).sKept by rw [rows_sKept]; exact List.mem_cons_of_mem _ (List.mem_cons_self ..))]
  rfl

end Rows

section RowsMain
variable {α : Type} {M N C w : Nat}

/-- Update index `(r, c)` lands at operand index `(r, c)`: start plus window coordinate is `0 + r` on axis 0 and
    `0 + c` on axis 1, inside the operand because `r < N ≤ M` and `c < C`; no update is dropped. -/
theorem rows_resultIdx (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).resultIdx? j idx
      = some (ix2 ⟨(j 0).val, Nat.lt_of_lt_of_le (idx2_lt0 j) (rows_le wf)⟩ (j 1)) := by
  have hNM := rows_le wf
  have hj0 := idx2_lt0 j
  have hj1 := idx2_lt1 j
  have h0 : (rowsDims M N C wf).start j idx 0 + ((rowsDims M N C wf).window j 0 : Int) = ((j 0).val : Int) := by
    rw [rows_start0 wf idx hidx j, rows_window0 wf j, Int.zero_add]
  have h1 : (rowsDims M N C wf).start j idx 1 + ((rowsDims M N C wf).window j 1 : Int) = ((j 1).val : Int) := by
    rw [rows_start1 wf idx j, rows_window1 wf j, Int.zero_add]
  unfold ScatterDims.resultIdx?
  have hall : ∀ a : Fin 2, 0 ≤ (rowsDims M N C wf).start j idx a + ((rowsDims M N C wf).window j a : Int) ∧
      (rowsDims M N C wf).start j idx a + ((rowsDims M N C wf).window j a : Int)
        < (((⟨2, ![M, C]⟩ : Shape).size a : Nat) : Int) := by
    intro a
    match a with
    | ⟨0, _⟩ =>
      show 0 ≤ (rowsDims M N C wf).start j idx 0 + ((rowsDims M N C wf).window j 0 : Int) ∧
        (rowsDims M N C wf).start j idx 0 + ((rowsDims M N C wf).window j 0 : Int) < ((M : Nat) : Int)
      rw [h0]; exact ⟨by omega, by omega⟩
    | ⟨1, _⟩ =>
      show 0 ≤ (rowsDims M N C wf).start j idx 1 + ((rowsDims M N C wf).window j 1 : Int) ∧
        (rowsDims M N C wf).start j idx 1 + ((rowsDims M N C wf).window j 1 : Int) < ((C : Nat) : Int)
      rw [h1]; exact ⟨by omega, by omega⟩
  rw [dif_pos hall]
  congr 1
  funext a
  refine Fin.ext ?_
  match a with
  | ⟨0, _⟩ =>
    show ((rowsDims M N C wf).start j idx 0 + ((rowsDims M N C wf).window j 0 : Int)).toNat = (j 0).val
    rw [h0]; exact Int.toNat_natCast _
  | ⟨1, _⟩ =>
    show ((rowsDims M N C wf).start j idx 1 + ((rowsDims M N C wf).window j 1 : Int)).toNat = (j 1).val
    rw [h1]; exact Int.toNat_natCast _

/-- THE SCATTER READ AT `(k, c)`: in the first `N` rows the body applied to the operand's entry and the update's
    entry at the same place, below them the operand's entry. The map from update indices to operand indices is
    `(r, c) ↦ (r, c)`: for `k < N` its only preimage of `(k, c)` is `(k, c)` itself, and for `N ≤ k` there is none
    because an update index's row is below `N`. -/
theorem scatter_rows_apply (wf : ScatterDims.WF ⟨2, ![M, C]⟩ ⟨1, ![1]⟩ ⟨2, ![N, C]⟩ [0, 1] [] [0] 0)
    (f : α → α → α) (x : (⟨2, ![M, C]⟩ : Shape).Idx → α) (idx : IVec ⟨1, ![1]⟩ w)
    (hidx : (idx (ix1 0)).toInt = 0) (upd : (⟨2, ![N, C]⟩ : Shape).Idx → α) (k : Fin M) (c : Fin C) :
    Host.scatter (rowsDims M N C wf) f x idx upd (ix2 k c)
      = if h : k.val < N then f (x (ix2 k c)) (upd (ix2 ⟨k.val, h⟩ c)) else x (ix2 k c) := by
  by_cases h : k.val < N
  · rw [dif_pos h]
    refine scatter_apply_of_hit_once (rowsDims M N C wf) f x idx upd (ix2 k c) (ix2 ⟨k.val, h⟩ c) ?_ ?_
    · rw [rows_resultIdx wf idx hidx]; rfl
    · intro j hj
      rw [rows_resultIdx wf idx hidx j] at hj
      have e := Option.some.inj hj
      have e0 : (j 0).val = k.val := congrArg Fin.val (congrFun e 0)
      have e1 : j 1 = c := congrFun e 1
      rw [eq_ix2 j]
      congr 1
      · exact Fin.ext e0
  · rw [dif_neg h]
    refine scatter_apply_of_not_hit (rowsDims M N C wf) f x idx upd (ix2 k c) ?_
    intro j hj
    rw [rows_resultIdx wf idx hidx j] at hj
    have e := Option.some.inj hj
    have e0 : (j 0).val = k.val := congrArg Fin.val (congrFun e 0)
    have := idx2_lt0 j
    omega

end RowsMain

end Cert.LibScatterRows

end
-- ==== Proof.LibScatterAt.lean ====
/-
  A SCATTER WHOSE UPDATE INDICES LAND AT KNOWN, PAIRWISE DISTINCT PLACES, read at an entry.

  `stablehlo.scatter` sends update index `j` to the operand index whose coordinate on every axis is the window's
  start plus the window coordinate of `j`, when that is inside the operand. Two general facts, for any dimension
  numbers:
  * when start plus window coordinate is, axis by axis, the coordinate of a given operand index `i`, the update
    lands at `i` and is not dropped (`resultIdx_of_coords`): the conditions `0 ≤ · < size` hold because `i` is an
    index of the operand;
  * when every update index `j` lands at `g j` for an injective map `g` (one window written at a fixed place,
    whatever its rank), the scatter read at `g j0` is the body applied to the operand's entry and the update's
    entry at `j0` (`scatter_apply_at_image`), and read at an index outside the image of `g` it is the operand's
    entry (`scatter_apply_off_image`): each operand entry meets at most one update of the fold.
-/
import proofs.«132807_j20804821581899_2_alg».proof.Proof.LibScatterRows

noncomputable section

namespace Cert.LibScatterAt

open Idealize.ShloMosaic Idealize.ShloMosaic.ValueIdx

variable {α : Type} {s si u : Shape} {w : Nat}

/-- An update index whose start plus window coordinate is, on every axis, the coordinate of the operand index `i`
    lands at `i`. -/
theorem resultIdx_of_coords (d : ScatterDims s si u) (j : u.Idx) (idx : IVec si w) (i : s.Idx)
    (h : ∀ a, d.start j idx a + (d.window j a : Int) = ((i a).val : Int)) :
    d.resultIdx? j idx = some i := by
  unfold ScatterDims.resultIdx?
  have hall : ∀ a, 0 ≤ d.start j idx a + (d.window j a : Int) ∧
      d.start j idx a + (d.window j a : Int) < ((s.size a : Nat) : Int) := by
    intro a
    rw [h a]
    have := (i a).isLt
    exact ⟨by omega, by omega⟩
  rw [dif_pos hall]
  congr 1
  funext a
  refine Fin.ext ?_
  show (d.start j idx a + (d.window j a : Int)).toNat = (i a).val
  rw [h a]
  exact Int.toNat_natCast _

/-- Every update index `j` lands at `g j`, `g` injective: the entry at `g j0` is the body applied to the operand's
    entry there and the update's entry at `j0`. -/
theorem scatter_apply_at_image (d : ScatterDims s si u) (f : α → α → α) (x : s.Idx → α) (idx : IVec si w)
    (upd : u.Idx → α) (g : u.Idx → s.Idx) (hg : ∀ j, d.resultIdx? j idx = some (g j))
    (hinj : Function.Injective g) (i' : s.Idx) (j0 : u.Idx) (h0 : g j0 = i') :
    Host.scatter d f x idx upd i' = f (x i') (upd j0) := by
  refine Cert.LibScatterRows.scatter_apply_of_hit_once d f x idx upd i' j0 (by rw [hg j0, h0]) ?_
  intro j hj
  rw [hg j] at hj
  exact hinj ((Option.some.inj hj).trans h0.symm)

/-- Every update index `j` lands at `g j`: an entry no `g j` equals keeps the operand's value. -/
theorem scatter_apply_off_image (d : ScatterDims s si u) (f : α → α → α) (x : s.Idx → α) (idx : IVec si w)
    (upd : u.Idx → α) (g : u.Idx → s.Idx) (hg : ∀ j, d.resultIdx? j idx = some (g j))
    (i' : s.Idx) (h : ∀ j, g j ≠ i') :
    Host.scatter d f x idx upd i' = x i' := by
  refine Cert.LibScatterRows.scatter_apply_of_not_hit d f x idx upd i' ?_
  intro j hj
  rw [hg j] at hj
  exact h j (Option.some.inj hj)

end Cert.LibScatterAt

end
-- ==== Proof.LibPads.lean ====
/-
  An array written into the corner of a larger array of zeros by ONE scatter window, read at an entry: what
  `zeros(shape).at[..., :H].set(u)` lowers to.

  `stablehlo.scatter` with every axis of the updates a window axis, no inserted axis and a single scatter index equal
  to 0 writes the whole of the updates as one window whose corner is the operand's corner, whichever operand axis the
  index names. Update index j therefore lands at the operand index with the same coordinates, an injective map, so
  the entry of the result at such a place is the body applied to the operand's entry and the update's entry.

  * `scatter_cols_apply`: updates [K, H] into an operand [K, H'], the index naming axis 1 (columns widened);
  * `scatter_vec_apply`: updates [H] into an operand [H'] (a vector lengthened);
  * `zero_index`: the scatter index a program builds by spreading the constant 0 over [1] is 0 read signed.
  The rows case (updates [N, C] into [M, C], the index naming axis 0) is the rows lemma this module's import proves.
-/
import proofs.«132807_j20804821581899_2_alg».proof.Proof.LibScatterAt
import Idealize.ShloMosaic.Lib.Pipeline.Value

noncomputable section

namespace Cert.Pads

open Idealize.ShloMosaic Idealize.ShloMosaic.ValueIdx

/-- The constant 0 spread over the one-entry index vector reads 0. -/
theorem zero_index (hb : (⟨0, ![]⟩ : Shape).BroadcastsInDim ⟨1, ![1]⟩ ![]) :
    ((broadcastInDim ⟨1, ![1]⟩ ![] hb (constantI ⟨0, ![]⟩ 32 0#32) : IVec ⟨1, ![1]⟩ 32) (ix1 0)).toInt = 0 := by
  rw [broadcastInDim_apply ![] hb _ (ix1 0) ix0 (fun ax => ax.elim0)]
  rfl

section Cols
variable {α : Type} {K H' H w : ℕ}

/-- Updates [K, H] into an operand [K, H']: both update axes window axes, no inserted axis, the one component of
    the scatter index the start on operand axis 1. -/
abbrev colsDims (K H' H : ℕ) (wf : ScatterDims.WF ⟨2, ![K, H']⟩ ⟨1, ![1]⟩ ⟨2, ![K, H]⟩ [0, 1] [] [1] 0) :
    ScatterDims ⟨2, ![K, H']⟩ ⟨1, ![1]⟩ ⟨2, ![K, H]⟩ where
  updateWindowDims := [0, 1]
  insertedWindowDims := []
  scatterDimsToOperandDims := [1]
  indexVectorDim := 0
  wf := wf

theorem cols_sKept (wf : ScatterDims.WF ⟨2, ![K, H']⟩ ⟨1, ![1]⟩ ⟨2, ![K, H]⟩ [0, 1] [] [1] 0) :
    (colsDims K H' H wf).sKept = [0, 1] := rfl

/-- The window starts at 0 on axis 0: the scatter index has no component for it. -/
theorem cols_start0 (wf : ScatterDims.WF ⟨2, ![K, H']⟩ ⟨1, ![1]⟩ ⟨2, ![K, H]⟩ [0, 1] [] [1] 0)
    (idx : IVec ⟨1, ![1]⟩ w) (j : (⟨2, ![K, H]⟩ : Shape).Idx) : (colsDims K H' H wf).start j idx 0 = 0 := by
  unfold ScatterDims.start
  rw [dif_neg (show (0 : Fin 2) ∉ (colsDims K H' H wf).scatterDimsToOperandDims from
    fun h => Nat.zero_ne_one (congrArg Fin.val (List.mem_singleton.mp h)))]

/-- The window starts at 0 on axis 1: that start is the scatter index's one component, which is 0. -/
theorem cols_start1 (wf : ScatterDims.WF ⟨2, ![K, H']⟩ ⟨1, ![1]⟩ ⟨2, ![K, H]⟩ [0, 1] [] [1] 0)
    (idx : IVec ⟨1, ![1]⟩ w) (hidx : (idx (ix1 0)).toInt = 0) (j : (⟨2, ![K, H]⟩ : Shape).Idx) :
    (colsDims K H' H wf).start j idx 1 = 0 := by
  unfold ScatterDims.start
  rw [dif_pos (show (1 : Fin 2) ∈ (colsDims K H' H wf).scatterDimsToOperandDims from List.mem_singleton.mpr rfl)]
  have hsi : (colsDims K H' H wf).siIdx j ⟨List.idxOf (1 : Fin 2) (colsDims K H' H wf).scatterDimsToOperandDims,
      List.idxOf_lt_length_iff.2 (List.mem_singleton.mpr rfl)⟩ = ix1 0 := by
    funext b; refine Fin.ext ?_
    match b with
    | ⟨0, _⟩ => rfl
  rw [hsi]; exact hidx

theorem cols_window0 (wf : ScatterDims.WF ⟨2, ![K, H']⟩ ⟨1, ![1]⟩ ⟨2, ![K, H]⟩ [0, 1] [] [1] 0)
    (j : (⟨2, ![K, H]⟩ : Shape).Idx) : (colsDims K H' H wf).window j 0 = (j 0).val := by
  unfold ScatterDims.window
  rw [dif_pos (show (0 : Fin 2) ∈ (colsDims K H' H wf).sKept by rw [cols_sKept]; exact List.mem_cons_self ..)]
  rfl

theorem cols_window1 (wf : ScatterDims.WF ⟨2, ![K, H']⟩ ⟨1, ![1]⟩ ⟨2, ![K, H]⟩ [0, 1] [] [1] 0)
    (j : (⟨2, ![K, H]⟩ : Shape).Idx) : (colsDims K H' H wf).window j 1 = (j 1).val := by
  unfold ScatterDims.window
  rw [dif_pos (show (1 : Fin 2) ∈ (colsDims K H' H wf).sKept by
    rw [cols_sKept]; exact List.mem_cons_of_mem _ (List.mem_cons_self ..))]
  rfl

/-- Update index (r, c) lands at operand index (r, c). -/
theorem cols_resultIdx (wf : ScatterDims.WF ⟨2, ![K, H']⟩ ⟨1, ![1]⟩ ⟨2, ![K, H]⟩ [0, 1] [] [1] 0) (hle : H ≤ H')
    (idx : IVec ⟨1, ![1]⟩ w) (hidx : (idx (ix1 0)).toInt = 0) (j : (⟨2, ![K, H]⟩ : Shape).Idx) :
    (colsDims K H' H wf).resultIdx? j idx = some (ix2 (j 0) (Fin.castLE hle (j 1))) := by
  refine Cert.LibScatterAt.resultIdx_of_coords _ j idx _ fun a => ?_
  match a with
  | ⟨0, _⟩ =>
    show (colsDims K H' H wf).start j idx 0 + ((colsDims K H' H wf).window j 0 : Int) = ((j 0).val : Int)
    rw [cols_start0 wf idx j, cols_window0 wf j, Int.zero_add]
  | ⟨1, _⟩ =>
    show (colsDims K H' H wf).start j idx 1 + ((colsDims K H' H wf).window j 1 : Int) = ((j 1).val : Int)
    rw [cols_start1 wf idx hidx j, cols_window1 wf j, Int.zero_add]

/-- THE SCATTER READ AT (j, c) for a column c of the updates: the body applied to the operand's entry and the
    update's entry (j, c). -/
theorem scatter_cols_apply (wf : ScatterDims.WF ⟨2, ![K, H']⟩ ⟨1, ![1]⟩ ⟨2, ![K, H]⟩ [0, 1] [] [1] 0) (hle : H ≤ H')
    (f : α → α → α) (x : (⟨2, ![K, H']⟩ : Shape).Idx → α) (idx : IVec ⟨1, ![1]⟩ w)
    (hidx : (idx (ix1 0)).toInt = 0) (upd : (⟨2, ![K, H]⟩ : Shape).Idx → α) (j : Fin K) (c : Fin H) :
    Host.scatter (colsDims K H' H wf) f x idx upd (ix2 j (Fin.castLE hle c))
      = f (x (ix2 j (Fin.castLE hle c))) (upd (ix2 j c)) := by
  refine Cert.LibScatterAt.scatter_apply_at_image (colsDims K H' H wf) f x idx upd
    (fun u => ix2 (u 0) (Fin.castLE hle (u 1))) (cols_resultIdx wf hle idx hidx) ?_ _ (ix2 j c) rfl
  intro u u' e
  have e0 : u 0 = u' 0 := congrFun e 0
  have e1 : u 1 = u' 1 := Fin.castLE_injective hle (congrFun e 1)
  rw [eq_ix2 u, eq_ix2 u', e0, e1]

end Cols

section Vec
variable {α : Type} {H' H w : ℕ}

/-- Updates [H] into an operand [H']: the one update axis a window axis, the scatter index's one component the
    start on the operand's one axis. -/
abbrev vecDims (H' H : ℕ) (wf : ScatterDims.WF ⟨1, ![H']⟩ ⟨1, ![1]⟩ ⟨1, ![H]⟩ [0] [] [0] 0) :
    ScatterDims ⟨1, ![H']⟩ ⟨1, ![1]⟩ ⟨1, ![H]⟩ where
  updateWindowDims := [0]
  insertedWindowDims := []
  scatterDimsToOperandDims := [0]
  indexVectorDim := 0
  wf := wf

theorem vec_sKept (wf : ScatterDims.WF ⟨1, ![H']⟩ ⟨1, ![1]⟩ ⟨1, ![H]⟩ [0] [] [0] 0) :
    (vecDims H' H wf).sKept = [0] := rfl

theorem vec_start (wf : ScatterDims.WF ⟨1, ![H']⟩ ⟨1, ![1]⟩ ⟨1, ![H]⟩ [0] [] [0] 0)
    (idx : IVec ⟨1, ![1]⟩ w) (hidx : (idx (ix1 0)).toInt = 0) (j : (⟨1, ![H]⟩ : Shape).Idx) :
    (vecDims H' H wf).start j idx 0 = 0 := by
  unfold ScatterDims.start
  rw [dif_pos (show (0 : Fin 1) ∈ (vecDims H' H wf).scatterDimsToOperandDims from List.mem_singleton.mpr rfl)]
  have hsi : (vecDims H' H wf).siIdx j ⟨List.idxOf (0 : Fin 1) (vecDims H' H wf).scatterDimsToOperandDims,
      List.idxOf_lt_length_iff.2 (List.mem_singleton.mpr rfl)⟩ = ix1 0 := by
    funext b; refine Fin.ext ?_
    match b with
    | ⟨0, _⟩ => rfl
  rw [hsi]; exact hidx

theorem vec_window (wf : ScatterDims.WF ⟨1, ![H']⟩ ⟨1, ![1]⟩ ⟨1, ![H]⟩ [0] [] [0] 0)
    (j : (⟨1, ![H]⟩ : Shape).Idx) : (vecDims H' H wf).window j 0 = (j 0).val := by
  unfold ScatterDims.window
  rw [dif_pos (show (0 : Fin 1) ∈ (vecDims H' H wf).sKept by rw [vec_sKept]; exact List.mem_cons_self ..)]
  rfl

/-- Update index c lands at operand index c. -/
theorem vec_resultIdx (wf : ScatterDims.WF ⟨1, ![H']⟩ ⟨1, ![1]⟩ ⟨1, ![H]⟩ [0] [] [0] 0) (hle : H ≤ H')
    (idx : IVec ⟨1, ![1]⟩ w) (hidx : (idx (ix1 0)).toInt = 0) (j : (⟨1, ![H]⟩ : Shape).Idx) :
    (vecDims H' H wf).resultIdx? j idx = some (ix1 (Fin.castLE hle (j 0))) := by
  refine Cert.LibScatterAt.resultIdx_of_coords _ j idx _ fun a => ?_
  match a with
  | ⟨0, _⟩ =>
    show (vecDims H' H wf).start j idx 0 + ((vecDims H' H wf).window j 0 : Int) = ((j 0).val : Int)
    rw [vec_start wf idx hidx j, vec_window wf j, Int.zero_add]

/-- THE SCATTER READ AT c for a place c of the updates: the body applied to the operand's entry and the update's. -/
theorem scatter_vec_apply (wf : ScatterDims.WF ⟨1, ![H']⟩ ⟨1, ![1]⟩ ⟨1, ![H]⟩ [0] [] [0] 0) (hle : H ≤ H')
    (f : α → α → α) (x : (⟨1, ![H']⟩ : Shape).Idx → α) (idx : IVec ⟨1, ![1]⟩ w)
    (hidx : (idx (ix1 0)).toInt = 0) (upd : (⟨1, ![H]⟩ : Shape).Idx → α) (c : Fin H) :
    Host.scatter (vecDims H' H wf) f x idx upd (ix1 (Fin.castLE hle c))
      = f (x (ix1 (Fin.castLE hle c))) (upd (ix1 c)) := by
  refine Cert.LibScatterAt.scatter_apply_at_image (vecDims H' H wf) f x idx upd
    (fun u => ix1 (Fin.castLE hle (u 0))) (vec_resultIdx wf hle idx hidx) ?_ _ (ix1 c) rfl
  intro u u' e
  have e0 : u 0 = u' 0 := Fin.castLE_injective hle (congrFun e 0)
  rw [eq_ix1 u, eq_ix1 u', e0]

end Vec

end Cert.Pads

end
-- ==== Proof.Entry.lean ====
/-
  What the kernel's region finds in the arrays its windows stage, as functions of the program's arguments.

  Window 1 stages the aggregated messages; windows 2 to 5 stage the weights and biases, the hidden dimension
  widened from 200 to 256: W1 written into the first 200 columns of a [128, 256] array of zeros, b1 into the first
  200 places of a [256] vector of zeros (then laid out as a row), W2 into the first 200 rows of a [256, 64] array of
  zeros, and b2 laid out as a row. Read at an entry, the widened arrays hold the original entries on the first 200
  hidden units, and the widened W2 holds zeros on the rows from 200 on.
-/
import proofs.«132807_j20804821581899_2_alg».proof.Proof.Gen.KernelIdeal.Frame
import proofs.«132807_j20804821581899_2_alg».proof.Proof.Agg
import proofs.«132807_j20804821581899_2_alg».proof.Proof.LibPads
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated messages of four arrays, over the kernel program's own dimension records. -/
abbrev aggArr (x0 : FVec Ideal S50000x128 .f32) (x1 x2 : IVec S800000 32) (x3 : FVec Ideal S800000 .f32) :
    FVec Ideal S50000x128 .f32 :=
  Cert.Agg.agg gather_S50000x128_S800000x1_S800000x128_1_0_n_n_0_1_1128 scatter_S50000x128_S800000x1_S800000x128_1_0_0_1
    bcast_S_S50000x128 bcast_S800000_S800000x1_0 bcast_S800000x1_S800000x128_0_1 bcast_S_S800000 x0 x1 x2 x3

/-- The aggregated messages of the program's arguments. -/
abbrev aggOf (c : Dev nD) : FVec Ideal S50000x128 .f32 :=
  aggArr (m ((c : Thread nD τ).loc main_arg0)) (m ((c : Thread nD τ).loc main_arg1)) (m ((c : Thread nD τ).loc main_arg2))
    (m ((c : Thread nD τ).loc main_arg3))

set_option maxHeartbeats 4000000 in
/-- Window 1's array is the aggregated messages. -/
theorem V_agg (c : Dev nD) : (V m c main_v12 : S50000x128.Idx → EReal) = aggOf m c := by
  dsimp only [V, hostOps0]
  after_results_simp
  rfl

set_option maxHeartbeats 4000000 in
/-- Window 2's array: W1 scattered into zeros. -/
theorem V_w1 (c : Dev nD) : (V m c main_v15 : S128x256.Idx → EReal)
    = Host.scatter scatter_S128x256_S1_S128x200_01_n_1_0 (fun _ b => b)
        (broadcastInDim S128x256 ![] bcast_S_S128x256 (constant (F := Ideal) S_ .f32 0x00000000#32))
        (broadcastInDim S1 ![] bcast_S_S1 (constantI S_ 32 0#32)) (m ((c : Thread nD τ).loc main_arg4)) := by
  dsimp only [V, hostOps0]
  after_results_simp

set_option maxHeartbeats 4000000 in
/-- Window 3's array: b1 scattered into zeros, laid out as a row. -/
theorem V_b1 (c : Dev nD) : (V m c main_v22 : S1x256.Idx → EReal)
    = shapeCast S1x256 (Host.scatter scatter_S256_S1_S200_0_n_0_0 (fun _ b => b)
        (broadcastInDim S256 ![] bcast_S_S256 (constant (F := Ideal) S_ .f32 0x00000000#32))
        (broadcastInDim S1 ![] bcast_S_S1 (constantI S_ 32 0#32)) (m ((c : Thread nD τ).loc main_arg5))) shapeCasts_S256_S1x256 := by
  dsimp only [V, hostOps0]
  after_results_simp
  rfl

set_option maxHeartbeats 4000000 in
/-- Window 4's array: W2 scattered into zeros. -/
theorem V_w2 (c : Dev nD) : (V m c main_v21 : S256x64.Idx → EReal)
    = Host.scatter scatter_S256x64_S1_S200x64_01_n_0_0 (fun _ b => b)
        (broadcastInDim S256x64 ![] bcast_S_S256x64 (constant (F := Ideal) S_ .f32 0x00000000#32))
        (broadcastInDim S1 ![] bcast_S_S1 (constantI S_ 32 0#32)) (m ((c : Thread nD τ).loc main_arg6)) := by
  dsimp only [V, hostOps0]
  after_results_simp

set_option maxHeartbeats 4000000 in
/-- Window 5's array: b2 laid out as a row. -/
theorem V_b2 (c : Dev nD) : (V m c main_v23 : S1x64.Idx → EReal)
    = shapeCast S1x64 (m ((c : Thread nD τ).loc main_arg7)) shapeCasts_S64_S1x64 := by
  dsimp only [V, hostOps0]
  after_results_simp
  rfl

end Cert.KernelIdeal.Entry

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«132807_j20804821581899_2_alg».proof.Proof.LibMatmulPlain
import proofs.«132807_j20804821581899_2_alg».proof.Proof.LibDotsNT
import proofs.«132807_j20804821581899_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibMlp.lean ====
/-
  A two-layer perceptron on the extended reals, read at an entry.

  For an input z : [a, k], weights W1 : [k, h], W2 : [h, n] and bias rows B1 : [1, h], B2 : [1, n] the network is
      net z (r, q) = sum over c < h of max(sum over j < k of z(r, j) * W1(j, c) + B1(0, c), 0) * W2(c, q)  +  B2(0, q),
  and its input is the residual combination z = one * x + g of two arrays.

  Three facts about it:
  * row r of the result looks at row r of z only, so the network of a block of rows is that block of the network of
    the whole array (`net_rows`);
  * widening the hidden layer from h to h' columns by zeros in W1, B1 and in the rows of W2 changes nothing
    (`net_pad`): a new hidden unit is max(sum of z(r, j) * 0 + 0, 0) and it is multiplied by 0; on the extended
    reals x * 0 = 0 for every x, the infinities included, so no finiteness is needed;
  * a bias vector laid out as a row by a reshape or by a broadcast_in_dim is the same one-row matrix (`rowOf`);
  * the spelling of a kernel tile (two matrix-unit products into zero accumulators, bias rows cast and spread over the
    rows, a splat zero under the maximum) and the spelling of the host (two dot_generals, bias vectors laid out by
    broadcast_in_dim) are both this function (`tile_net`, `host_net`).
-/
import Idealize.ShloMosaic.Lib.Pipeline.Value
import Idealize.ShloMosaic.Lib.ValueIdx
import Idealize.ShloMosaic.Lib.ValueLayout
import Idealize.ShloMosaic.PureOps.Ideal.Laws
import proofs.«132807_j20804821581899_2_alg».proof.Proof.LibDenseLayer

noncomputable section

open scoped BigOperators

namespace Cert.Mlp

open Idealize.ShloMosaic Idealize.ShloMosaic.ValueIdx

/-- A sum over `h'` places whose terms vanish from place `h` on is the sum over the first `h` places. -/
theorem sum_pad {M : Type*} [AddCommMonoid M] {h h' : ℕ} (hle : h ≤ h') (f : Fin h' → M)
    (hf : ∀ c : Fin h', h ≤ c.val → f c = 0) : ∑ c, f c = ∑ c : Fin h, f (Fin.castLE hle c) := by
  have e : ∑ c : Fin h, f (Fin.castLE hle c)
      = ∑ c ∈ Finset.univ.map ⟨Fin.castLE hle, Fin.castLE_injective hle⟩, f c := by
    rw [Finset.sum_map]; rfl
  rw [e]
  symm
  refine Finset.sum_subset (Finset.subset_univ _) fun c _ hc => hf c ?_
  by_contra hlt
  exact hc (Finset.mem_map.mpr ⟨⟨c.val, by omega⟩, Finset.mem_univ _, Fin.ext rfl⟩)

variable {a k h n : ℕ}

/-- A matrix of extended reals. -/
abbrev Mat (p q : ℕ) : Type := (⟨2, ![p, q]⟩ : Shape).Idx → EReal

/-- The residual combination: `one * x + g`, entry by entry. -/
def comb (one : EReal) (x g : Mat a k) : Mat a k := fun i => one * x i + g i

/-- The hidden layer: the biased product, rectified. -/
def hidden (z : Mat a k) (W : Mat k h) (B : Mat 1 h) : Mat a h := fun i => max (Cert.Dense.biased z W B i) 0

/-- The network: the biased product of the hidden layer. -/
def net (z : Mat a k) (W1 : Mat k h) (B1 : Mat 1 h) (W2 : Mat h n) (B2 : Mat 1 n) : Mat a n :=
  Cert.Dense.biased (hidden z W1 B1) W2 B2

/-- A vector laid out as a one-row matrix. -/
def rowOf (b : (⟨1, ![n]⟩ : Shape).Idx → EReal) : Mat 1 n := fun i => b (ix1 (i 1))

/-- The reshape [n] -> [1, n] of a vector is its one-row matrix. -/
theorem shapeCast_eq_rowOf (b : (⟨1, ![n]⟩ : Shape).Idx → EReal) (hc : (⟨1, ![n]⟩ : Shape).ShapeCasts ⟨2, ![1, n]⟩) :
    shapeCast ⟨2, ![1, n]⟩ b hc = rowOf b := by
  funext j
  obtain ⟨u, q, rfl⟩ : ∃ (u : Fin 1) (q : Fin n), j = ix2 u q := ⟨j 0, j 1, eq_ix2 j⟩
  exact shapeCast_a_1a_apply b hc u q

/-- The broadcast_in_dim [n] -> [1, n] along axis 1 of a vector is its one-row matrix. -/
theorem bcast_eq_rowOf (b : (⟨1, ![n]⟩ : Shape).Idx → EReal) (hb : (⟨1, ![n]⟩ : Shape).BroadcastsInDim ⟨2, ![1, n]⟩ ![1]) :
    broadcastInDim ⟨2, ![1, n]⟩ ![1] hb b = rowOf b := by
  funext j
  obtain ⟨u, q, rfl⟩ : ∃ (u : Fin 1) (q : Fin n), j = ix2 u q := ⟨j 0, j 1, eq_ix2 j⟩
  refine broadcastInDim_apply ![1] hb b (ix2 u q) (ix1 q) fun ax => ?_
  match ax with
  | ⟨0, _⟩ =>
    show q.val = if n = 1 then 0 else q.val
    split
    · have := q.isLt; omega
    · rfl

theorem net_ix2 (z : Mat a k) (W1 : Mat k h) (B1 : Mat 1 h) (W2 : Mat h n) (B2 : Mat 1 n) (r : Fin a) (q : Fin n) :
    net z W1 B1 W2 B2 (ix2 r q)
      = (∑ c : Fin h, max ((∑ j : Fin k, z (ix2 r j) * W1 (ix2 j c)) + B1 (ix2 (0 : Fin 1) c)) 0 * W2 (ix2 c q))
        + B2 (ix2 (0 : Fin 1) q) := rfl

/-- Row `r` of the result depends on row `r` of the input only: if `z'` holds, in row `p`, row `o p` of `z`,
    then the network of `z'` holds, in row `p`, row `o p` of the network of `z`. -/
theorem net_rows {a' : ℕ} (o : Fin a' → Fin a) (z' : Mat a' k) (z : Mat a k) (W1 : Mat k h) (B1 : Mat 1 h)
    (W2 : Mat h n) (B2 : Mat 1 n) (hz : ∀ p j, z' (ix2 p j) = z (ix2 (o p) j)) (p : Fin a') (q : Fin n) :
    net z' W1 B1 W2 B2 (ix2 p q) = net z W1 B1 W2 B2 (ix2 (o p) q) := by
  rw [net_ix2, net_ix2]
  simp only [hz]

/-- Hidden units added as zeros change nothing: `W1'`, `B1'` are `W1`, `B1` with zero columns from `h` on and
    `W2'` is `W2` with zero rows from `h` on. -/
theorem net_pad {h' : ℕ} (hle : h ≤ h') (z : Mat a k) (W1 : Mat k h) (B1 : Mat 1 h) (W2 : Mat h n) (B2 : Mat 1 n)
    (W1' : Mat k h') (B1' : Mat 1 h') (W2' : Mat h' n)
    (hW1 : ∀ (j : Fin k) (c : Fin h), W1' (ix2 j (Fin.castLE hle c)) = W1 (ix2 j c))
    (hB1 : ∀ c : Fin h, B1' (ix2 (0 : Fin 1) (Fin.castLE hle c)) = B1 (ix2 (0 : Fin 1) c))
    (hW2 : ∀ (c : Fin h) (q : Fin n), W2' (ix2 (Fin.castLE hle c) q) = W2 (ix2 c q))
    (hW2z : ∀ (c : Fin h') (q : Fin n), h ≤ c.val → W2' (ix2 c q) = 0) :
    net z W1' B1' W2' B2 = net z W1 B1 W2 B2 := by
  funext i
  obtain ⟨r, q, rfl⟩ : ∃ (r : Fin a) (q : Fin n), i = ix2 r q := ⟨i 0, i 1, eq_ix2 i⟩
  rw [net_ix2, net_ix2]
  congr 1
  rw [sum_pad hle _ (fun c hc => by rw [hW2z c q hc, mul_zero])]
  refine Finset.sum_congr rfl fun c _ => ?_
  simp only [hW1, hB1, hW2]

section Spellings

variable (d1 : DotDims ⟨2, ![a, k]⟩ ⟨2, ![k, h]⟩ ⟨2, ![a, h]⟩)
  (h1lc : d1.lhsContracting = [1]) (h1rc : d1.rhsContracting = [0]) (h1ln : d1.lhsNonContracting = [0])
  (h1rn : d1.rhsNonContracting = [1]) (h1lb : d1.lhsBatch = []) (h1rb : d1.rhsBatch = [])
  (d2 : DotDims ⟨2, ![a, h]⟩ ⟨2, ![h, n]⟩ ⟨2, ![a, n]⟩)
  (h2lc : d2.lhsContracting = [1]) (h2rc : d2.rhsContracting = [0]) (h2ln : d2.lhsNonContracting = [0])
  (h2rn : d2.rhsNonContracting = [1]) (h2lb : d2.lhsBatch = []) (h2rb : d2.rhsBatch = [])

include h1lc h1rc h1ln h1rn h1lb h1rb h2lc h2rc h2ln h2rn h2lb h2rb in
/-- The tile's spelling is the network of the combined input: both products are sums over the contracted axis, each
    bias row cast to its own shape and spread over the rows reads its column's entry, and the zero word denotes 0. -/
theorem tile_net (one : BitVec 32) (x0 x1 : FVec Ideal ⟨2, ![a, k]⟩ .f32) (x2 : FVec Ideal ⟨2, ![k, h]⟩ .f32)
    (x3 : FVec Ideal ⟨2, ![1, h]⟩ .f32) (x4 : FVec Ideal ⟨2, ![h, n]⟩ .f32) (x5 : FVec Ideal ⟨2, ![1, n]⟩ .f32)
    (c1 : (⟨2, ![a, k]⟩ : Shape).ShapeCasts ⟨2, ![a, k]⟩) (c2 : (⟨2, ![k, h]⟩ : Shape).ShapeCasts ⟨2, ![k, h]⟩)
    (c3 : (⟨2, ![1, h]⟩ : Shape).ShapeCasts ⟨2, ![1, h]⟩) (b3 : (⟨2, ![1, h]⟩ : Shape).Broadcasts ⟨2, ![a, h]⟩)
    (c4 : (⟨2, ![h, n]⟩ : Shape).ShapeCasts ⟨2, ![h, n]⟩)
    (c5 : (⟨2, ![1, n]⟩ : Shape).ShapeCasts ⟨2, ![1, n]⟩) (b5 : (⟨2, ![1, n]⟩ : Shape).Broadcasts ⟨2, ![a, n]⟩)
    (p : Fin a) (q : Fin n) :
    addf (matmul d2 none
          (maximumf
            (addf (matmul d1 none
                    (addf (mulf (broadcast ⟨2, ![a, k]⟩ (Scalar.ofBits (F := Ideal) .f32 one)) x0) (shapeCast ⟨2, ![a, k]⟩ x1 c1))
                    (shapeCast ⟨2, ![k, h]⟩ x2 c2) (constant ⟨2, ![a, h]⟩ .f32 0x00000000#32))
              (broadcastTo ⟨2, ![a, h]⟩ (shapeCast ⟨2, ![1, h]⟩ x3 c3) b3))
            (broadcast ⟨2, ![a, h]⟩ (Scalar.ofBits (F := Ideal) .f32 0x00000000#32)))
          (shapeCast ⟨2, ![h, n]⟩ x4 c4) (constant ⟨2, ![a, n]⟩ .f32 0x00000000#32))
        (broadcastTo ⟨2, ![a, n]⟩ (shapeCast ⟨2, ![1, n]⟩ x5 c5) b5) (ix2 p q)
      = net (comb (Ideal.ofBits .f32 one) x0 x1) x2 x3 x4 x5 (ix2 p q) := by
  rw [Cert.Dense.tile_biased, net_ix2]
  congr 1
  refine (Cert.LibMatmulPlain.matmul_zero_apply d2 h2lc h2rc h2ln h2rn h2lb h2rb none _ _ p q).trans ?_
  refine Finset.sum_congr rfl fun c _ => ?_
  rw [shapeCast_self, maximumf_apply, broadcast_apply, Cert.Dense.tile_biased, shapeCast_self, shapeCast_self]
  show max _ (Ideal.ofBits .f32 0x00000000#32) * _ = _
  rw [Ideal.ofBits_zero_f32]
  congr 3
  exact Cert.LibMatmulPlain.matmul_zero_apply d1 h1lc h1rc h1ln h1rn h1lb h1rb none _ _ p c

include h1lc h1rc h1ln h1rn h1lb h1rb h2lc h2rc h2ln h2rn h2lb h2rb in
/-- The host's spelling is the network of the combined input, as whole arrays: each dot_general is the product, a
    bias row laid over the rows by broadcast_in_dim reads its column's entry, the splat one and the splat zero
    read their words. -/
theorem host_net (one : BitVec 32) (x g : FVec Ideal ⟨2, ![a, k]⟩ .f32) (W1 : FVec Ideal ⟨2, ![k, h]⟩ .f32)
    (B1 : FVec Ideal ⟨2, ![1, h]⟩ .f32) (W2 : FVec Ideal ⟨2, ![h, n]⟩ .f32) (B2 : FVec Ideal ⟨2, ![1, n]⟩ .f32)
    (s1 : (⟨0, ![]⟩ : Shape).BroadcastsInDim ⟨2, ![a, k]⟩ ![]) (s0 : (⟨0, ![]⟩ : Shape).BroadcastsInDim ⟨2, ![a, h]⟩ ![])
    (hB1 : (⟨2, ![1, h]⟩ : Shape).BroadcastsInDim ⟨2, ![a, h]⟩ ![0, 1])
    (hB2 : (⟨2, ![1, n]⟩ : Shape).BroadcastsInDim ⟨2, ![a, n]⟩ ![0, 1]) :
    addf (Host.dotGeneral d2 none
          (maximumf
            (addf (Host.dotGeneral d1 none
                    (addf (mulf (broadcastInDim ⟨2, ![a, k]⟩ ![] s1 (constant (F := Ideal) ⟨0, ![]⟩ .f32 one)) x) g) W1)
              (broadcastInDim ⟨2, ![a, h]⟩ ![0, 1] hB1 B1))
            (broadcastInDim ⟨2, ![a, h]⟩ ![] s0 (constant (F := Ideal) ⟨0, ![]⟩ .f32 0x00000000#32)))
          W2)
        (broadcastInDim ⟨2, ![a, n]⟩ ![0, 1] hB2 B2)
      = net (comb (Ideal.ofBits .f32 one) x g) W1 B1 W2 B2 := by
  funext i
  obtain ⟨r, q, rfl⟩ : ∃ (r : Fin a) (q : Fin n), i = ix2 r q := ⟨i 0, i 1, eq_ix2 i⟩
  rw [Cert.Dense.host_biased, Cert.Dense.dotGeneral_eq_prod d2 h2lc h2rc h2ln h2rn h2lb h2rb, Cert.Dense.prod_ix2, net_ix2]
  congr 1
  refine Finset.sum_congr rfl fun c _ => ?_
  rw [maximumf_apply, Cert.Dense.host_biased, Cert.Dense.dotGeneral_eq_prod d1 h1lc h1rc h1ln h1rn h1lb h1rb, Cert.Dense.prod_ix2,
    broadcastInDim_apply ![] s0 _ (ix2 r c) ix0 (fun ax => ax.elim0), constant_apply, Ideal.ofBits_zero_f32]
  congr 3

end Spellings

end Cert.Mlp

end
-- ==== Proof.Blocks.lean ====
/-
  From the blocks to the array. Grid point t of the kernel works on rows 10000 t … 10000 t + 9999: it stages those rows
  of x and of the aggregated messages, the whole of the (widened) weights and biases, and writes back the same rows of
  the result. Its stored value is the two-layer network of the staged blocks, and a row of the network looks at the
  same row of its input only; so what point t writes back is rows 10000 t … of the network of the WHOLE arrays. The
  five points' row blocks tile the 50000 rows, hence after the run the result array is that network.

  Every statement about a block is made for ARBITRARY arrays standing where the region's arrays stand, and only the
  last step puts the region's arrays in: how those arrays were computed plays no part here.
-/
import proofs.«132807_j20804821581899_2_alg».proof.Proof.Gen.KernelIdeal.Value
import proofs.«132807_j20804821581899_2_alg».proof.Proof.LibMlp

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The stored value of the body at (p, q): the network of the residual combination of the two row blocks, over
    the staged weights and bias rows. -/
theorem pay_apply (x0 x1 : Vec Ideal S10000x128 .f32) (x2 : Vec Ideal S128x256 .f32) (x3 : Vec Ideal S1x256 .f32)
    (x4 : Vec Ideal S256x64 .f32) (x5 : Vec Ideal S1x64 .f32) (p : Fin 10000) (q : Fin 64) :
    k0_pay1 x0 x1 x2 x3 x4 x5 (ix2 p q)
      = Cert.Mlp.net (Cert.Mlp.comb (Ideal.ofBits .f32 0x3F800000#32) x0 x1) x2 x3 x4 x5 (ix2 p q) := by
  unfold k0_pay1
  exact Cert.Mlp.tile_net dot_S10000x128_S128x256_S10000x256_1_0_0_1_n_n rfl rfl rfl rfl rfl rfl
    dot_S10000x256_S256x64_S10000x64_1_0_0_1_n_n rfl rfl rfl rfl rfl rfl 0x3F800000#32 x0 x1 x2 x3 x4 x5 _ _ _ _ _ _ _ p q

/-- The stored value of the body when its row blocks are rows `o p` of two whole arrays `X`, `A`: rows `o p` of the
    network of the whole arrays. -/
theorem pay_rows (X A : Cert.Mlp.Mat 50000 128) (W1 : Cert.Mlp.Mat 128 256) (B1 : Cert.Mlp.Mat 1 256)
    (W2 : Cert.Mlp.Mat 256 64) (B2 : Cert.Mlp.Mat 1 64) (o : Fin 10000 → Fin 50000)
    (x0 x1 : Vec Ideal S10000x128 .f32) (x2 : Vec Ideal S128x256 .f32) (x3 : Vec Ideal S1x256 .f32)
    (x4 : Vec Ideal S256x64 .f32) (x5 : Vec Ideal S1x64 .f32)
    (h0 : ∀ (p : Fin 10000) (j : Fin 128), x0 (ix2 p j) = X (ix2 (o p) j))
    (h1 : ∀ (p : Fin 10000) (j : Fin 128), x1 (ix2 p j) = A (ix2 (o p) j))
    (h2 : x2 = W1) (h3 : x3 = B1) (h4 : x4 = W2) (h5 : x5 = B2) (p : Fin 10000) (q : Fin 64) :
    k0_pay1 x0 x1 x2 x3 x4 x5 (ix2 p q)
      = Cert.Mlp.net (Cert.Mlp.comb (Ideal.ofBits .f32 0x3F800000#32) X A) W1 B1 W2 B2 (ix2 (o p) q) := by
  rw [pay_apply, h2, h3, h4, h5]
  refine Cert.Mlp.net_rows o _ _ W1 B1 W2 B2 (fun p j => ?_) p q
  show Ideal.ofBits .f32 0x3F800000#32 * x0 (ix2 p j) + x1 (ix2 p j) = Ideal.ofBits .f32 0x3F800000#32 * X (ix2 (o p) j) + A (ix2 (o p) j)
  rw [h0, h1]

/-- The printed index maps over the five grid points: the row windows move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t of an array X is rows 10000 t … of X. -/
theorem read0 (t : Fin cfg0.N) (X : S50000x128.Idx → EReal) (p : Fin 10000) (j : Fin 128) (r : Fin 50000)
    (hr : r.val = t.val * 10000 + p.val) :
    (((cfg0.win 0).blk t).view.read (Elt Ideal) X : Vec Ideal S10000x128 .f32) (ix2 p j) = X (ix2 r j) := by
  obtain ⟨e0, e1, -⟩ := idx_facts t
  rw [View.read_apply]
  show X _ = X _
  refine congrArg X ?_
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * j.val = j.val; rw [e1]; omega

/-- Window 1's block at point t of an array A is rows 10000 t … of A. -/
theorem read1 (t : Fin cfg0.N) (A : S50000x128.Idx → EReal) (p : Fin 10000) (j : Fin 128) (r : Fin 50000)
    (hr : r.val = t.val * 10000 + p.val) :
    (((cfg0.win 1).blk t).view.read (Elt Ideal) A : Vec Ideal S10000x128 .f32) (ix2 p j) = A (ix2 r j) := by
  obtain ⟨-, -, e0, e1, -⟩ := idx_facts t
  rw [View.read_apply]
  show A _ = A _
  refine congrArg A ?_
  funext a
  apply Fin.ext
  match a with
  | ⟨0, _⟩ => show win0_1.index t (0 : Fin 2) * 10000 + 1 * p.val = r.val; rw [e0, hr]; omega
  | ⟨1, _⟩ => show win0_1.index t (1 : Fin 2) * 128 + 1 * j.val = j.val; rw [e1]; omega

/-- Windows 2 to 5 stage their whole arrays at every point. -/
theorem read2 (t : Fin cfg0.N) (W : S128x256.Idx → EReal) :
    (((cfg0.win 2).blk t).view.read (Elt Ideal) W : Vec Ideal S128x256 .f32) = W := by
  obtain ⟨-, -, -, -, e0, e1, -⟩ := idx_facts t
  funext y
  rw [View.read_apply]
  show W _ = W y
  refine congrArg W ?_
  funext a
  apply Fin.ext
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

theorem read3 (t : Fin cfg0.N) (B : S1x256.Idx → EReal) :
    (((cfg0.win 3).blk t).view.read (Elt Ideal) B : Vec Ideal S1x256 .f32) = B := by
  obtain ⟨-, -, -, -, -, -, e0, e1, -⟩ := idx_facts t
  funext y
  rw [View.read_apply]
  show B _ = B y
  refine congrArg B ?_
  funext a
  apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

theorem read4 (t : Fin cfg0.N) (W : S256x64.Idx → EReal) :
    (((cfg0.win 4).blk t).view.read (Elt Ideal) W : Vec Ideal S256x64 .f32) = W := by
  obtain ⟨-, -, -, -, -, -, -, -, e0, e1, -⟩ := idx_facts t
  funext y
  rw [View.read_apply]
  show W _ = W y
  refine congrArg W ?_
  funext a
  apply Fin.ext
  match a with
  | ⟨0, _⟩ => show win0_4.index t (0 : Fin 2) * 256 + 1 * (y 0).val = (y 0).val; rw [e0]; omega
  | ⟨1, _⟩ => show win0_4.index t (1 : Fin 2) * 64 + 1 * (y 1).val = (y 1).val; rw [e1]; omega

theorem read5 (t : Fin cfg0.N) (B : S1x64.Idx → EReal) :
    (((cfg0.win 5).blk t).view.read (Elt Ideal) B : Vec Ideal S1x64 .f32) = B := by
  obtain ⟨-, -, -, -, -, -, -, -, -, -, e0, e1, -⟩ := idx_facts t
  funext y
  rw [View.read_apply]
  show B _ = B y
  refine congrArg B ?_
  funext a
  apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- The body's stored value over point t's blocks of six arrays, cut to the output window, is block t of the
    network of the six arrays. -/
theorem block_eq (t : Fin cfg0.N) (X A : S50000x128.Idx → EReal) (W1 : S128x256.Idx → EReal) (B1 : S1x256.Idx → EReal)
    (W2 : S256x64.Idx → EReal) (B2 : S1x64.Idx → EReal) :
    (cfg0.win 6).cut (grid0.coords t)
        (k0_pay1 (((cfg0.win 0).blk t).view.read (Elt Ideal) X) (((cfg0.win 1).blk t).view.read (Elt Ideal) A)
          (((cfg0.win 2).blk t).view.read (Elt Ideal) W1) (((cfg0.win 3).blk t).view.read (Elt Ideal) B1)
          (((cfg0.win 4).blk t).view.read (Elt Ideal) W2) (((cfg0.win 5).blk t).view.read (Elt Ideal) B2))
      = ((cfg0.win 6).blk t).view.read (Elt Ideal)
          (Cert.Mlp.net (Cert.Mlp.comb (Ideal.ofBits .f32 0x3F800000#32) X A) W1 B1 W2 B2 : S50000x64.Idx → EReal) := by
  have ht : t.val < 5 := t.isLt
  obtain ⟨-, -, -, -, -, -, -, -, -, -, -, -, e0, e1⟩ := idx_facts t
  funext y
  obtain ⟨p, q, rfl⟩ : ∃ (p : Fin 10000) (q : Fin 64), y = ix2 p q := ⟨y 0, y 1, eq_ix2 y⟩
  show k0_pay1 (F := Ideal) _ _ _ _ _ _ (ix2 p q)
    = Cert.Mlp.net (Cert.Mlp.comb (Ideal.ofBits .f32 0x3F800000#32) X A) W1 B1 W2 B2 (((cfg0.win 6).blk t).view.emb (ix2 p q))
  have hemb : ((cfg0.win 6).blk t).view.emb (ix2 p q)
      = (ix2 (⟨t.val * 10000 + p.val, by omega⟩ : Fin 50000) q : S50000x64.Idx) := by
    funext a
    apply Fin.ext
    match a with
    | ⟨0, _⟩ => show win0_6.index t (0 : Fin 2) * 10000 + 1 * p.val = t.val * 10000 + p.val; rw [e0]; omega
    | ⟨1, _⟩ => show win0_6.index t (1 : Fin 2) * 64 + 1 * q.val = q.val; rw [e1]; omega
  rw [hemb]
  exact pay_rows X A W1 B1 W2 B2 (fun p => (⟨t.val * 10000 + p.val, by omega⟩ : Fin 50000)) _ _ _ _ _ _
    (fun p j => read0 t X p j _ rfl) (fun p j => read1 t A p j _ rfl)
    (read2 t W1) (read3 t B1) (read4 t W2) (read5 t B2) p q

variable (m : (ℓ : Loc nD τ sig) → Buf (Elt Ideal) ℓ) (ρ : Dev nD → PrngReg)

/-- The network of the whole arrays the region finds: what the result array ends holding. -/
def whole (c : Dev nD) : S50000x64.Idx → EReal :=
  Cert.Mlp.net (Cert.Mlp.comb (Ideal.ofBits .f32 0x3F800000#32) (V m c (Pipeline.arrRef spec0 0)) (V m c (Pipeline.arrRef spec0 1)))
    (V m c (Pipeline.arrRef spec0 2)) (V m c (Pipeline.arrRef spec0 3)) (V m c (Pipeline.arrRef spec0 4)) (V m c (Pipeline.arrRef spec0 5))

/-- WHAT POINT t WRITES BACK is block t of the network of the whole arrays. -/
theorem flushed_eq (c : Dev nD) (t : Fin cfg0.N) :
    (dats m 0 c).flushed 6 t = ((cfg0.win 6).blk t).view.read (Elt Ideal) (whole m c) := by
  rw [Cert.KernelIdeal.Value.flushed6]
  unfold out0_6
  rw [View.canon_unit_zero hz]
  simp only [View.ld_unit_zero (S := S10000x128) hz, View.ld_unit_zero (S := S128x256) hz, View.ld_unit_zero (S := S1x256) hz,
    View.ld_unit_zero (S := S256x64) hz, View.ld_unit_zero (S := S1x64) hz]
  unfold iblk whole
  exact block_eq t _ _ _ _ _ _

/-- An index of the array is in point t's block iff each coordinate is in the block's range on its axis. -/
theorem mem_blk (t : Fin cfg0.N) (i : S50000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v24).slice (win0_6.rect t)).set ↔ _
  rw [View.set_slice_whole, Rect.mem_set_unit]
  exact Iff.rfl

/-- Every row of the array is in the block of the point numbered by the row's quotient by 10000. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 5 := N_0
  obtain ⟨t, htv⟩ : ∃ t : Fin cfg0.N, t.val = (i 0).val / 10000 := ⟨⟨(i 0).val / 10000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    rw [e0, htv]; omega
  | ⟨1, _⟩ =>
    show win0_6.index t (1 : Fin 2) * 64 ≤ (i 1).val ∧ (i 1).val < win0_6.index t (1 : Fin 2) * 64 + 64
    rw [e1]; omega

/-- THE ARRAY after the run: the network of the whole arrays the region finds. -/
theorem final (c : Dev nD) : (dats m 0 c).arrAt 6 cfg0.N = whole m c :=
  (dats m 0 c).arrAt_eq_of_cover 6 (whole m c) (fun t _ => flushed_eq m c t) cover

/-- The run re-posted: the result array at the network of the region-entry arrays, the arguments unchanged. -/
theorem run : θ_run defs (onTc (τ := τ) (main (F := Ideal))) ⟨m, fun _ => 0, ρ⟩ fun r => ∀ c : Dev nD,
      r.2.mem ((c : Thread nD τ).loc main_v24) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Blocks

end
-- ==== Proof.Widen.lean ====
/-
  The kernel's result as the two-layer network of the program's arguments.

  After the run the result array is the network of the arrays the region finds (the blocks-to-array module of this
  directory). Those arrays are: x itself, the aggregated messages, and the weights and biases with the hidden dimension
  widened from 200 to 256 by zeros. On the first 200 hidden units the widened arrays hold W1, b1 and W2; on the others
  the widened W2 holds zero rows, so those units contribute products with 0: the network over the widened arrays
  is the network over W1, b1, W2, b2.
-/
import proofs.«132807_j20804821581899_2_alg».proof.Proof.Entry
import proofs.«132807_j20804821581899_2_alg».proof.Proof.Blocks

noncomputable section

namespace Cert.KernelIdeal.Widen

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem le_hidden : 200 ≤ 256 := by decide

/-- The widened W1 holds W1 on the first 200 columns. -/
theorem w1_entry (c : Dev nD) (j : Fin 128) (k : Fin 200) :
    (V m c (Pipeline.arrRef spec0 2) : S128x256.Idx → EReal) (ix2 j (Fin.castLE le_hidden k))
      = (m ((c : Thread nD τ).loc main_arg4) : S128x200.Idx → EReal) (ix2 j k) := by
  have e : (V m c (Pipeline.arrRef spec0 2) : S128x256.Idx → EReal) = _ := Cert.KernelIdeal.Entry.V_w1 m c
  rw [e]
  exact Cert.Pads.scatter_cols_apply (K := 128) (H' := 256) (H := 200) scatter_S128x256_S1_S128x200_01_n_1_0.wf le_hidden
    (fun _ b => b) _ _ (Cert.Pads.zero_index bcast_S_S1) _ j k

/-- The widened bias row holds b1 on the first 200 places. -/
theorem b1_entry (c : Dev nD) (k : Fin 200) :
    (V m c (Pipeline.arrRef spec0 3) : S1x256.Idx → EReal) (ix2 (0 : Fin 1) (Fin.castLE le_hidden k))
      = Cert.Mlp.rowOf (m ((c : Thread nD τ).loc main_arg5) : S200.Idx → EReal) (ix2 (0 : Fin 1) k) := by
  have e : (V m c (Pipeline.arrRef spec0 3) : S1x256.Idx → EReal) = _ := Cert.KernelIdeal.Entry.V_b1 m c
  rw [e]
  refine (shapeCast_a_1a_apply _ _ _ _).trans ?_
  exact Cert.Pads.scatter_vec_apply (H' := 256) (H := 200) scatter_S256_S1_S200_0_n_0_0.wf le_hidden
    (fun _ b => b) _ _ (Cert.Pads.zero_index bcast_S_S1) _ k

/-- The widened W2 holds W2 on the first 200 rows … -/
theorem w2_entry (c : Dev nD) (k : Fin 200) (q : Fin 64) :
    (V m c (Pipeline.arrRef spec0 4) : S256x64.Idx → EReal) (ix2 (Fin.castLE le_hidden k) q)
      = (m ((c : Thread nD τ).loc main_arg6) : S200x64.Idx → EReal) (ix2 k q) := by
  have e : (V m c (Pipeline.arrRef spec0 4) : S256x64.Idx → EReal) = _ := Cert.KernelIdeal.Entry.V_w2 m c
  rw [e]
  refine (Cert.LibScatterRows.scatter_rows_apply (M := 256) (N := 200) (C := 64) scatter_S256x64_S1_S200x64_01_n_0_0.wf
    (fun _ b => b) _ _ (Cert.Pads.zero_index bcast_S_S1) _ (Fin.castLE le_hidden k) q).trans ?_
  rw [dif_pos (show (Fin.castLE le_hidden k).val < 200 from k.isLt)]
  rfl

/-- … and zeros on the rows from 200 on. -/
theorem w2_zero (c : Dev nD) (k : Fin 256) (q : Fin 64) (hk : 200 ≤ k.val) :
    ((V m c (Pipeline.arrRef spec0 4) : S256x64.Idx → EReal) (ix2 k q) : EReal) = (0 : EReal) := by
  have e : (V m c (Pipeline.arrRef spec0 4) : S256x64.Idx → EReal) = _ := Cert.KernelIdeal.Entry.V_w2 m c
  rw [e]
  refine (Cert.LibScatterRows.scatter_rows_apply (M := 256) (N := 200) (C := 64) scatter_S256x64_S1_S200x64_01_n_0_0.wf
    (fun _ b => b) _ _ (Cert.Pads.zero_index bcast_S_S1) _ k q).trans ?_
  rw [dif_neg (show ¬ k.val < 200 from by omega),
    broadcastInDim_apply ![] bcast_S_S256x64 _ (ix2 k q) ix0 (fun ax => ax.elim0), constant_apply, Ideal.ofBits_zero_f32]

/-- THE KERNEL'S RESULT: the network of the combined input over W1, b1, W2, b2. -/
theorem whole_eq (c : Dev nD) :
    Cert.KernelIdeal.Blocks.whole m c
      = Cert.Mlp.net (Cert.Mlp.comb (Ideal.ofBits .f32 0x3F800000#32) (m ((c : Thread nD τ).loc main_arg0) : S50000x128.Idx → EReal)
            (Cert.KernelIdeal.Entry.aggOf m c))
          (m ((c : Thread nD τ).loc main_arg4) : S128x200.Idx → EReal) (Cert.Mlp.rowOf (m ((c : Thread nD τ).loc main_arg5) : S200.Idx → EReal))
          (m ((c : Thread nD τ).loc main_arg6) : S200x64.Idx → EReal) (Cert.Mlp.rowOf (m ((c : Thread nD τ).loc main_arg7) : S64.Idx → EReal)) := by
  have e0 : (V m c (Pipeline.arrRef spec0 0) : S50000x128.Idx → EReal) = m ((c : Thread nD τ).loc main_arg0) := V_main_arg0 m c
  have e1 : (V m c (Pipeline.arrRef spec0 1) : S50000x128.Idx → EReal) = Cert.KernelIdeal.Entry.aggOf m c :=
    Cert.KernelIdeal.Entry.V_agg m c
  have e5 : (V m c (Pipeline.arrRef spec0 5) : S1x64.Idx → EReal)
      = Cert.Mlp.rowOf (m ((c : Thread nD τ).loc main_arg7) : S64.Idx → EReal) :=
    (Cert.KernelIdeal.Entry.V_b2 m c).trans (Cert.Mlp.shapeCast_eq_rowOf _ _)
  unfold Cert.KernelIdeal.Blocks.whole
  rw [e0, e1, e5]
  exact Cert.Mlp.net_pad le_hidden _ _ _ _ _ _ _ _ (w1_entry m c) (b1_entry m c) (w2_entry m c) (w2_zero m c)

end Cert.KernelIdeal.Widen

end
-- ==== Proof.RefValue.lean ====
/-
  The reference's result as the two-layer network of its arguments.

  The reference's host program computes the aggregated messages, the residual combination 1.0 * x + agg, a
  dot_general with W1 plus the bias b1 laid over the rows, the maximum with zero, and a dot_general with W2 plus b2
  laid over the rows: term for term the network of the combined input over W1, the one-row matrix of b1, W2 and the
  one-row matrix of b2.
-/
import proofs.«132807_j20804821581899_2_alg».proof.Proof.Gen.ReferenceIdeal.Run
import proofs.«132807_j20804821581899_2_alg».proof.Proof.LibMlp
import proofs.«132807_j20804821581899_2_alg».proof.Proof.Agg

noncomputable section

namespace Cert.ReferenceIdeal.Bridge

open Cert.ReferenceIdeal Cert.ReferenceIdeal.Gen Idealize.ShloMosaic Idealize.ShloMosaic.TcCoe Idealize.SL.Sem
open Idealize.ShloMosaic.ValueIdx

/-- The aggregated messages of four argument arrays, over the reference's own dimension records. -/
abbrev aggOf (x0 : FVec Ideal S50000x128 .f32) (x1 x2 : IVec S800000 32) (x3 : FVec Ideal S800000 .f32) :
    FVec Ideal S50000x128 .f32 :=
  Cert.Agg.agg gather_S50000x128_S800000x1_S800000x128_1_0_n_n_0_1_1128 scatter_S50000x128_S800000x1_S800000x128_1_0_0_1
    bcast_S_S50000x128 bcast_S800000_S800000x1_0 bcast_S800000x1_S800000x128_0_1 bcast_S_S800000 x0 x1 x2 x3

/-- The term the reference's run ends at is the network of the combined input. -/
theorem result_eq (x0 : FVec Ideal S50000x128 .f32) (x1 x2 : IVec S800000 32) (x3 : FVec Ideal S800000 .f32)
    (x4 : FVec Ideal S128x200 .f32) (x5 : FVec Ideal S200 .f32) (x6 : FVec Ideal S200x64 .f32) (x7 : FVec Ideal S64 .f32) :
    addf (Host.dotGeneral dot_S50000x200_S200x64_S50000x64_1_0_0_1_n_n none
          (maximumf
            (addf (Host.dotGeneral dot_S50000x128_S128x200_S50000x200_1_0_0_1_n_n none
                    (addf (mulf (broadcastInDim S50000x128 ![] bcast_S_S50000x128 (constant (F := Ideal) S_ .f32 0x3F800000#32)) x0)
                      (aggOf x0 x1 x2 x3)) x4)
              (broadcastInDim S50000x200 ![0, 1] bcast_S1x200_S50000x200_0_1 (broadcastInDim S1x200 ![1] bcast_S200_S1x200_1 x5)))
            (broadcastInDim S50000x200 ![] bcast_S_S50000x200 (constant (F := Ideal) S_ .f32 0x00000000#32)))
          x6)
        (broadcastInDim S50000x64 ![0, 1] bcast_S1x64_S50000x64_0_1 (broadcastInDim S1x64 ![1] bcast_S64_S1x64_1 x7))
      = Cert.Mlp.net (Cert.Mlp.comb (Ideal.ofBits .f32 0x3F800000#32) x0 (aggOf x0 x1 x2 x3)) x4 (Cert.Mlp.rowOf x5) x6 (Cert.Mlp.rowOf x7) := by
  rw [← Cert.Mlp.bcast_eq_rowOf x5 bcast_S200_S1x200_1, ← Cert.Mlp.bcast_eq_rowOf x7 bcast_S64_S1x64_1]
  exact Cert.Mlp.host_net dot_S50000x128_S128x200_S50000x200_1_0_0_1_n_n rfl rfl rfl rfl rfl rfl
    dot_S50000x200_S200x64_S50000x64_1_0_0_1_n_n rfl rfl rfl rfl rfl rfl 0x3F800000#32 x0 (aggOf x0 x1 x2 x3) x4 _ x6 _
    bcast_S_S50000x128 bcast_S_S50000x200 bcast_S1x200_S50000x200_0_1 bcast_S1x64_S50000x64_0_1

end Cert.ReferenceIdeal.Bridge

end
-- ==== Proof.lean ====
/-
  The kernel computes, for 50000 nodes with 128 features, 800000 weighted edges and a two-layer perceptron with 200
  hidden units and 64 outputs,
      out = max((1.0 * x + agg) W1 + b1, 0) W2 + b2,     agg[i] = sum over edges e with row[e] = i of val[e] * x[col[e]],
  the aggregation by host operations and the perceptron in a kernel tiled over blocks of 10000 rows, its hidden
  dimension widened to 256 by zeros; the reference computes the same formula on whole arrays.

  On the extended reals the two results are equal entry by entry: both programs spell the aggregation with the same
  host operations; a block of rows of the perceptron is the perceptron of the block of rows; a matrix-unit product
  into a zero accumulator and a dot_general are the same sum; and a hidden unit added as zeros is multiplied by a zero
  weight, which gives 0 whatever it holds (x * 0 = 0 on the extended reals, the infinities included — no finiteness
  of the inputs is used). The three frames are the kernel's generated frame run (at the word level and at the
  idealized level) and the reference's generated run with its result dropped; the idealization rewrote nothing.
-/
import proofs.«132807_j20804821581899_2_alg».proof.Defs
import proofs.«132807_j20804821581899_2_alg».proof.Proof.Gen.Kernel
import proofs.«132807_j20804821581899_2_alg».proof.Proof.Gen.Kernel.Frame
import proofs.«132807_j20804821581899_2_alg».proof.Proof.Gen.KernelIdeal
import proofs.«132807_j20804821581899_2_alg».proof.Proof.Gen.KernelIdeal.Frame
import proofs.«132807_j20804821581899_2_alg».proof.Proof.Gen.KernelIdeal.Value
import proofs.«132807_j20804821581899_2_alg».proof.Proof.Gen.ReferenceIdeal
import proofs.«132807_j20804821581899_2_alg».proof.Proof.Gen.ReferenceIdeal.Run
import proofs.«132807_j20804821581899_2_alg».proof.Proof.Gen.Pre_finite_inputs
import proofs.«132807_j20804821581899_2_alg».proof.Proof.Widen
import proofs.«132807_j20804821581899_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The aggregated messages are one function of the arguments in both programs: their dimension records hold the
    same numbers. -/
theorem agg_eq (x0 : FVec Ideal Cert.KernelIdeal.S50000x128 .f32) (x1 x2 : IVec Cert.KernelIdeal.S800000 32)
    (x3 : FVec Ideal Cert.KernelIdeal.S800000 .f32) :
    Cert.ReferenceIdeal.Bridge.aggOf x0 x1 x2 x3 = Cert.KernelIdeal.Entry.aggArr x0 x1 x2 x3 := rfl

/-- At the ideal values both programs end at the two-layer network of the combined input over W1, b1, W2, b2: the
    kernel by its blocks and the widening law, the reference term for term. -/
theorem algebraic : Cert.algebraic_KernelIdeal_ReferenceIdeal := by
  intro m ρ m' ρ' _ hagree
  refine ⟨fun c => Cert.KernelIdeal.Blocks.whole m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show _ = Cert.KernelIdeal.Blocks.whole m c
  rw [Cert.KernelIdeal.Widen.whole_eq, a0, a1, a2, a3, a4, a5, a6, a7]
  refine (Cert.ReferenceIdeal.Bridge.result_eq _ _ _ _ _ _ _ _).trans ?_
  rw [agg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
